-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S512x64 .f32 .bf16
  ∧ IdealRules.truncf_extf.Statement Cert.KernelIdeal.S2048x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x512x64, .f32⟩
  | .local _ .vmem, ⟨5, _⟩ => ⟨S1x512x64, .f32⟩
  | .local _ .vmem, ⟨6, _⟩ => ⟨S1x512x2048, .f32⟩
  | .local _ .vmem, ⟨7, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  natLt_1_32 : 1 < 32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x2048x64.size a
  hwx0_3 : ∀ i : grid0.Coords, EltTy.bits .f32 = 32 ∨ (Rect.block (s := S16x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .f32 = 32 ∨ (Rect.block (s := S16x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S16x2048x2048, .f32⟩
  | .hbm, ⟨25, _⟩ => ⟨S16x2048x2048, .i1⟩
  | .hbm, ⟨26, _⟩ => ⟨S16x2048x2048, .f32⟩
  | .hbm, ⟨27, _⟩ => ⟨S16x2048x2048, .f32⟩
  | .hbm, ⟨28, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibSoftmaxRow.lean ====
/-
  The mathematics of one attention row, over the reals.

  For a row of real logits x the row's softmax is  soft x j = exp (x j - max x) / Σ_k exp (x k - max x).  The
  winner-take-all gate keeps an entry exactly when it attains the row's maximum, and zeroes the others:

      gate x j = soft x j · [ soft x j = max_k soft x k ].

  Dividing every entry of a row by one positive number neither moves nor merges its maxima, so the gate may equally be
  decided on the unnormalised exponentials:  soft x j = max soft x  ⇔  exp (x j - max x) = max_k exp (x k - max x).
  This is the one law that joins the two programs; the rest of the file reads the extended-real operations (fold of max
  from -∞, finite sums, exp, the quotient, the comparison's bit turned into 0 or 1) on rows of real numbers.
-/
import Idealize.ShloMosaic.PureOps.Ideal.Laws

noncomputable section

namespace Cert.Attn

open Idealize.ShloMosaic

variable {ι : Type*} [Fintype ι] [Nonempty ι]

/-- The maximum of a real row over a nonempty finite index type. -/
def rmax (x : ι → ℝ) : ℝ := Finset.univ.sup' Finset.univ_nonempty x

theorem le_rmax (x : ι → ℝ) (j : ι) : x j ≤ rmax x := Finset.le_sup' x (Finset.mem_univ j)

theorem exists_eq_rmax (x : ι → ℝ) : ∃ j, x j = rmax x := by
  obtain ⟨j, _, hj⟩ := Finset.exists_mem_eq_sup' Finset.univ_nonempty x
  exact ⟨j, hj.symm⟩

theorem rmax_le (x : ι → ℝ) (c : ℝ) (h : ∀ j, x j ≤ c) : rmax x ≤ c := Finset.sup'_le _ _ fun j _ => h j

/-- Dividing a row by a positive number divides its maximum. -/
theorem rmax_div (f : ι → ℝ) {c : ℝ} (hc : 0 < c) : rmax (fun j => f j / c) = rmax f / c := by
  apply le_antisymm
  · refine rmax_le _ _ fun j => ?_
    rw [div_eq_mul_inv, div_eq_mul_inv]
    exact mul_le_mul_of_nonneg_right (le_rmax f j) (inv_nonneg.mpr hc.le)
  · obtain ⟨j, hj⟩ := exists_eq_rmax f
    rw [← hj]
    exact le_rmax (fun j => f j / c) j

/-- The unnormalised exponentials of a row, shifted by its maximum. -/
def pexp (x : ι → ℝ) (j : ι) : ℝ := Real.exp (x j - rmax x)

/-- Their sum, the softmax denominator. -/
def psum (x : ι → ℝ) : ℝ := ∑ j, pexp x j

theorem psum_pos (x : ι → ℝ) : 0 < psum x :=
  Finset.sum_pos (fun j _ => Real.exp_pos _) Finset.univ_nonempty

/-- The row's softmax. -/
def soft (x : ι → ℝ) (j : ι) : ℝ := pexp x j / psum x

/-- The gated softmax: an entry is kept when its exponential is the row's largest. -/
def gate (x : ι → ℝ) (j : ι) : ℝ := soft x j * (if pexp x j = rmax (pexp x) then 1 else 0)

/-- The law: an entry is the softmax row's maximum exactly when its exponential is the largest exponential. -/
theorem soft_eq_rmax_iff (x : ι → ℝ) (j : ι) : soft x j = rmax (soft x) ↔ pexp x j = rmax (pexp x) := by
  have h : rmax (soft x) = rmax (pexp x) / psum x := rmax_div (pexp x) (psum_pos x)
  rw [h]
  unfold soft
  exact div_left_inj' (psum_pos x).ne'

/-- So the gate decided on the softmax itself is the same gate. -/
theorem gate_eq_soft (x : ι → ℝ) (j : ι) :
    gate x j = soft x j * (if soft x j = rmax (soft x) then 1 else 0) := by
  unfold gate
  by_cases h : pexp x j = rmax (pexp x)
  · rw [if_pos h, if_pos ((soft_eq_rmax_iff x j).mpr h)]
  · rw [if_neg h, if_neg (fun h' => h ((soft_eq_rmax_iff x j).mp h'))]

/-! ## The extended-real operations on rows of reals -/

/-- A fold of max from -∞ over a row of reals is the row's maximum. -/
theorem fold_max_coe (x : ι → ℝ) :
    Finset.univ.fold max (⊥ : EReal) (fun j => ((x j : ℝ) : EReal)) = ((rmax x : ℝ) : EReal) := by
  apply le_antisymm
  · rw [Finset.fold_max_le]
    exact ⟨bot_le, fun j _ => EReal.coe_le_coe_iff.mpr (le_rmax x j)⟩
  · obtain ⟨j, hj⟩ := exists_eq_rmax x
    rw [← hj, Finset.le_fold_max]
    exact Or.inr ⟨j, Finset.mem_univ j, le_rfl⟩

/-- A finite sum of reals, taken in the extended reals, is the real sum. -/
theorem sum_coe {κ : Type*} (s : Finset κ) (x : κ → ℝ) : ∑ j ∈ s, ((x j : ℝ) : EReal) = ((∑ j ∈ s, x j : ℝ) : EReal) := by
  classical
  induction s using Finset.induction_on with
  | empty => simp
  | insert a s ha ih => rw [Finset.sum_insert ha, Finset.sum_insert ha, EReal.coe_add, ih]

/-- The exponential of a difference of reals. -/
theorem exp_sub_coe (a b : ℝ) : Ideal.exp ((a : EReal) - (b : EReal)) = ((Real.exp (a - b) : ℝ) : EReal) := by
  rw [← EReal.coe_sub]; rfl

/-- The ideal quotient of a real by a nonzero real. -/
theorem div_coe_coe (a b : ℝ) (hb : b ≠ 0) : Ideal.div (a : EReal) (b : EReal) = ((a / b : ℝ) : EReal) := by
  rw [Ideal.div_coe hb, ← EReal.coe_mul, mul_one_div]

/-- The ordered-equality bit of two reals, widened and read as a signed integer, is 1 or 0. -/
theorem mask_sitofp (a b : ℝ) :
    (((BitVec.setWidth 32 (Ideal.cmp .oeq (a : EReal) (b : EReal))).toInt : ℝ) : EReal)
      = (((if a = b then 1 else 0 : ℝ)) : EReal) := by
  unfold Ideal.cmp
  by_cases h : a = b
  · subst h; simp
  · have h' : ¬ ((a : EReal) = (b : EReal)) := fun e => h (EReal.coe_eq_coe_iff.mp e)
    simp [h, h']

/-- The ordered-equality bit of two reals read as an unsigned integer is 1 or 0. -/
theorem mask_uitofp (a b : ℝ) :
    ((((Ideal.cmp .oeq (a : EReal) (b : EReal)).toNat : ℝ)) : EReal)
      = (((if a = b then 1 else 0 : ℝ)) : EReal) := by
  unfold Ideal.cmp
  by_cases h : a = b
  · subst h; simp
  · have h' : ¬ ((a : EReal) = (b : EReal)) := fun e => h (EReal.coe_eq_coe_iff.mp e)
    simp [h, h']

end Cert.Attn

end
-- ==== Proof.Consts.lean ====
/-
  The float constants the two programs spell, as the extended reals their bit patterns denote: the kernel's scale
  0.125 is the real 1/8, the reference's divisor 8.0 is the real 8 (so dividing by the one is multiplying by the
  other), the reductions' initial value for a maximum is -∞ and for a sum is 0.
-/
import Idealize.ShloMosaic.PureOps.Ideal

noncomputable section

namespace Cert.Attn.Consts

open Idealize.ShloMosaic

/-- `0.125` denotes the real 1/8. -/
theorem ofBits_eighth : Ideal.ofBits .f32 0x3E000000#32 = ((1 / 8 : ℝ) : EReal) := by
  simp [Ideal.ofBits, Ideal.ieee, -EReal.coe_mul]; norm_num

/-- `8.0` denotes the real 8. -/
theorem ofBits_eight : Ideal.ofBits .f32 0x41000000#32 = ((8 : ℝ) : EReal) := by
  simp [Ideal.ofBits, Ideal.ieee, -EReal.coe_mul]; norm_num

/-- The pattern of negative infinity denotes -∞, the least extended real. -/
theorem ofBits_neg_inf : Ideal.ofBits .f32 0xFF800000#32 = (⊥ : EReal) := by
  simp [Ideal.ofBits, Ideal.ieee]

/-- `+0.0` denotes 0. -/
theorem ofBits_zero : Ideal.ofBits .f32 0x00000000#32 = (0 : EReal) := by
  simp [Ideal.ofBits, Ideal.ieee]

end Cert.Attn.Consts

end
-- ==== Proof.KernelRow.lean ====
/-
  The kernel body's arithmetic on real blocks.

  One grid point holds a block of 512 query rows and all 2048 key rows of one batch element. The body splits each
  operand into a leading part and a remainder, x = hi + (x - hi); over the extended reals the leading part IS x, so
  the remainder is x - x = 0 on real entries and the two correction products vanish: the three matrix products add
  up to the one product q·kᵀ. Scaled by 1/8 these are the logits; each row is then shifted by its maximum,
  exponentiated, normalised by its sum, and gated by the comparison of the exponentials with their row maximum —
  the gated softmax `Cert.Attn.gate` of the row. The second output is the product of the gated rows with the value
  block.
-/
import proofs.«133774_j50534585205285_2_alg».proof.Proof.Gen.KernelIdeal.Skeleton
import proofs.«133774_j50534585205285_2_alg».proof.Proof.LibSoftmaxRow
import proofs.«133774_j50534585205285_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Attn

/-- A real matrix as a vector of extended reals. -/
def mat {a b : ℕ} (f : Fin a → Fin b → ℝ) : FVec Ideal ⟨2, ![a, b]⟩ .f32 := fun i => ((f (i 0) (i 1) : ℝ) : EReal)
/-- A real vector as a vector of extended reals. -/
def vec {a : ℕ} (g : Fin a → ℝ) : FVec Ideal ⟨1, ![a]⟩ .f32 := fun i => ((g (i 0) : ℝ) : EReal)
/-- A real vector as a one-column matrix of extended reals. -/
def col {a : ℕ} (g : Fin a → ℝ) : FVec Ideal ⟨2, ![a, 1]⟩ .f32 := fun i => ((g (i 0) : ℝ) : EReal)

/-! ## Pointwise operations on real matrices -/

theorem sub_mat {a b : ℕ} (f g : Fin a → Fin b → ℝ) : subf (mat f) (mat g) = mat (fun p k => f p k - g p k) :=
  funext fun i => (EReal.coe_sub _ _).symm

theorem add_mat {a b : ℕ} (f g : Fin a → Fin b → ℝ) : addf (mat f) (mat g) = mat (fun p k => f p k + g p k) :=
  funext fun i => (EReal.coe_add _ _).symm

theorem mul_mat {a b : ℕ} (f g : Fin a → Fin b → ℝ) : mulf (mat f) (mat g) = mat (fun p k => f p k * g p k) :=
  funext fun i => (EReal.coe_mul _ _).symm

theorem exp_mat {a b : ℕ} (f : Fin a → Fin b → ℝ) : exp (mat f) = mat (fun p k => Real.exp (f p k)) :=
  funext fun i => rfl

theorem div_mat {a b : ℕ} (f g : Fin a → Fin b → ℝ) (hg : ∀ p k, g p k ≠ 0) :
    divf (mat f) (mat g) = mat (fun p k => f p k / g p k) :=
  funext fun i => div_coe_coe _ _ (hg _ _)

/-- The comparison's bit, widened and converted, is the 0/1 indicator of equality. -/
theorem mask_mat {a b : ℕ} (f g : Fin a → Fin b → ℝ) (h : 1 < 32) :
    (sitofp .f32 (extui 32 (cmpf .oeq (mat f) (mat g)) h) : FVec Ideal ⟨2, ![a, b]⟩ .f32)
      = mat (fun p k => if f p k = g p k then 1 else 0) :=
  funext fun i => mask_sitofp _ _

/-- The splat of the scale 0.125. -/
theorem eighth_mat : (broadcast S512x2048 (Scalar.ofBits (F := Ideal) .f32 0x3E000000#32) : FVec Ideal S512x2048 .f32)
    = mat (fun _ _ => 1 / 8) :=
  funext fun i => Consts.ofBits_eighth

/-! ## Row reductions and the keepdims re-layout -/

/-- A row maximum from -∞. -/
theorem rowmax_mat (f : Fin 512 → Fin 2048 → ℝ) :
    multiReduction (F := Ideal) .maximumf [1] S512 (mat f) 0xFF800000#32 Facts₀.reduces_S512x2048_S512 (.inl rfl) rfl
      = vec (fun p => rmax (f p)) := by
  funext i
  refine (Ideal.multiReduction_maximumf_single (mat f) 0xFF800000#32 Facts₀.reduces_S512x2048_S512 (.inl rfl) rfl i).trans ?_
  have hb : FloatOps.ofBits (F := Ideal) .f32 0xFF800000#32 = (⊥ : EReal) := Consts.ofBits_neg_inf
  rw [hb]
  exact fold_max_coe (f (i 0))

/-- A row sum. -/
theorem rowsum_mat (f : Fin 512 → Fin 2048 → ℝ) :
    multiReduction (F := Ideal) .add [1] S512 (mat f) 0x00000000#32 Facts₀.reduces_S512x2048_S512 (.inl rfl) rfl
      = vec (fun p => ∑ k, f p k) := by
  funext i
  refine (Ideal.multiReduction_add_single (mat f) 0x00000000#32 Facts₀.reduces_S512x2048_S512 (.inl rfl) rfl i).trans ?_
  exact sum_coe Finset.univ (f (i 0))

/-- A vector cast to a one-column matrix. -/
theorem col_of_vec (g : Fin 512 → ℝ) : shapeCast S512x1 (vec g) Facts₀.shapeCasts_S512_S512x1 = col g := by
  funext j
  refine (shapeCast_apply _ _ j (ix1 (j 0)) ?_).trans rfl
  rw [Shape.rowMajor_val_one, Shape.rowMajor_val_two]
  show (j 0).val = (j 0).val * 1 + (j 1).val
  have : (j 1).val < 1 := (j 1).isLt
  omega

/-- A one-column matrix broadcast along the rows. -/
theorem bcast_col (g : Fin 512 → ℝ) :
    broadcastTo S512x2048 (col g) Facts₀.broadcasts_S512x1_S512x2048 = mat (fun p _ => g p) := by
  funext j
  refine (broadcastTo_apply _ _ j (ix2 (j 0) (0 : Fin 1)) fun ax => ?_).trans rfl
  match ax with
  | ⟨0, _⟩ => show (j 0).val = if (512 : ℕ) = 1 then 0 else (j 0).val; rw [if_neg (by decide)]
  | ⟨1, _⟩ => show 0 = if (1 : ℕ) = 1 then 0 else (j 1).val; rw [if_pos rfl]

/-- A row statistic, reduced over the keys and laid back along them (`keepdims`). -/
def rowMaxB (v : FVec Ideal S512x2048 .f32) : FVec Ideal S512x2048 .f32 :=
  broadcastTo S512x2048 (shapeCast S512x1 (multiReduction .maximumf [1] S512 v 0xFF800000#32 Facts₀.reduces_S512x2048_S512 (.inl rfl) rfl) Facts₀.shapeCasts_S512_S512x1) Facts₀.broadcasts_S512x1_S512x2048

def rowSumB (v : FVec Ideal S512x2048 .f32) : FVec Ideal S512x2048 .f32 :=
  broadcastTo S512x2048 (shapeCast S512x1 (multiReduction .add [1] S512 v 0x00000000#32 Facts₀.reduces_S512x2048_S512 (.inl rfl) rfl) Facts₀.shapeCasts_S512_S512x1) Facts₀.broadcasts_S512x1_S512x2048

theorem rowMaxB_mat (f : Fin 512 → Fin 2048 → ℝ) : rowMaxB (mat f) = mat (fun p _ => rmax (f p)) := by
  unfold rowMaxB; rw [rowmax_mat, col_of_vec, bcast_col]

theorem rowSumB_mat (f : Fin 512 → Fin 2048 → ℝ) : rowSumB (mat f) = mat (fun p _ => ∑ k, f p k) := by
  unfold rowSumB; rw [rowsum_mat, col_of_vec, bcast_col]

/-! ## From logits to the gated softmax -/

/-- The exponentials of the logits shifted by their row maximum. -/
def expOf (v20 : FVec Ideal S512x2048 .f32) : FVec Ideal S512x2048 .f32 := exp (subf v20 (rowMaxB v20))

/-- The body from the logits on: softmax by an exact division, gated where the exponential is the row's largest. -/
def attnOf (v20 : FVec Ideal S512x2048 .f32) : FVec Ideal S512x2048 .f32 :=
  mulf (divf (expOf v20) (rowSumB (expOf v20)))
    (sitofp .f32 (extui 32 (cmpf .oeq (expOf v20) (rowMaxB (expOf v20))) Facts₀.natLt_1_32))

theorem expOf_mat (L : Fin 512 → Fin 2048 → ℝ) : expOf (mat L) = mat (fun p => pexp (L p)) := by
  unfold expOf; rw [rowMaxB_mat, sub_mat, exp_mat]; rfl

theorem attnOf_mat (L : Fin 512 → Fin 2048 → ℝ) : attnOf (mat L) = mat (fun p => gate (L p)) := by
  unfold attnOf
  have hne : ∀ (p : Fin 512) (_ : Fin 2048), (∑ k', pexp (L p) k') ≠ 0 := fun p _ => (psum_pos (L p)).ne'
  rw [expOf_mat, rowSumB_mat, rowMaxB_mat, div_mat _ _ hne, mask_mat, mul_mat]
  rfl

end Cert.KernelIdeal.Body

end
-- ==== Proof.KernelBody.lean ====
/-
  The kernel body's two results as real matrices of the real blocks it loads.

  With Q the 512 × 64 block of queries, K the 2048 × 64 block of keys and W the 2048 × 64 block of values at a grid
  point, the first result (the attention block) is, row p and key j,

      gate (fun j' => (Σ_d Q p d · K j' d) / 8) j,

  and the second is its product with the values, Σ_j attention p j · W j d. The matrix products are read at an entry
  as sums over the one contracted axis: the first contracts the second axis of both operands (q·kᵀ), the second the
  second axis of the left with the first of the right.
-/
import proofs.«133774_j50534585205285_2_alg».proof.Proof.KernelRow

noncomputable section

namespace Cert.KernelIdeal.Body

open Cert.KernelIdeal Cert.KernelIdeal.Gen Idealize.ShloMosaic Idealize.ShloMosaic.ValueIdx Cert.Attn

/-- The dimension record of q·kᵀ: both operands contracted along their second axis. -/
abbrev DNT : DotDims S512x64 S2048x64 S512x2048 := dot_S512x64_S2048x64_S512x2048_1_1_0_0_n_n
/-- The dimension record of attention · values. -/
abbrev DNN : DotDims S512x2048 S2048x64 S512x64 := dot_S512x2048_S2048x64_S512x64_1_0_0_1_n_n

/-! ## The operand indices of the two products -/

theorem lhsNT_0 (i : S512x2048.Idx) (q : DNT.contr.Idx) : (DNT.lhsIdx i q 0).val = (i 0).val := by
  unfold DotDims.lhsIdx
  rw [dif_neg (show ¬(0 : Fin S512x64.rank) ∈ DNT.lhsBatch by decide), dif_pos (show (0 : Fin S512x64.rank) ∈ DNT.lhsNonContracting by decide)]
  rfl
theorem lhsNT_1 (i : S512x2048.Idx) (q : DNT.contr.Idx) : (DNT.lhsIdx i q 1).val = (q ⟨0, by decide⟩).val :=
  DNT.lhsIdx_val_of_single rfl i q
theorem rhsNT_0 (i : S512x2048.Idx) (q : DNT.contr.Idx) : (DNT.rhsIdx i q 0).val = (i 1).val := by
  unfold DotDims.rhsIdx
  rw [dif_neg (show ¬(0 : Fin S2048x64.rank) ∈ DNT.rhsBatch by decide), dif_pos (show (0 : Fin S2048x64.rank) ∈ DNT.rhsNonContracting by decide)]
  rfl
theorem rhsNT_1 (i : S512x2048.Idx) (q : DNT.contr.Idx) : (DNT.rhsIdx i q 1).val = (q ⟨0, by decide⟩).val :=
  DNT.rhsIdx_val_of_single rfl i q

theorem lhsNN_0 (i : S512x64.Idx) (q : DNN.contr.Idx) : (DNN.lhsIdx i q 0).val = (i 0).val := by
  unfold DotDims.lhsIdx
  rw [dif_neg (show ¬(0 : Fin S512x2048.rank) ∈ DNN.lhsBatch by decide), dif_pos (show (0 : Fin S512x2048.rank) ∈ DNN.lhsNonContracting by decide)]
  rfl
theorem lhsNN_1 (i : S512x64.Idx) (q : DNN.contr.Idx) : (DNN.lhsIdx i q 1).val = (q ⟨0, by decide⟩).val :=
  DNN.lhsIdx_val_of_single rfl i q
theorem rhsNN_0 (i : S512x64.Idx) (q : DNN.contr.Idx) : (DNN.rhsIdx i q 0).val = (q ⟨0, by decide⟩).val :=
  DNN.rhsIdx_val_of_single rfl i q
theorem rhsNN_1 (i : S512x64.Idx) (q : DNN.contr.Idx) : (DNN.rhsIdx i q 1).val = (i 1).val := by
  unfold DotDims.rhsIdx
  rw [dif_neg (show ¬(1 : Fin S2048x64.rank) ∈ DNN.rhsBatch by decide), dif_pos (show (1 : Fin S2048x64.rank) ∈ DNN.rhsNonContracting by decide)]
  rfl

/-! ## The two products of real matrices -/

/-- q·kᵀ of real matrices into zeros: entry (p, j) is the inner product of row p of the left with row j of the right. -/
theorem matmulNT_mat (A : Fin 512 → Fin 64 → ℝ) (B : Fin 2048 → Fin 64 → ℝ) {φ₁ φ₂ : FTy}
    (lhs : FVec Ideal S512x64 φ₁) (rhs : FVec Ideal S2048x64 φ₂)
    (hl : ∀ i, lhs i = ((A (i 0) (i 1) : ℝ) : EReal)) (hr : ∀ i, rhs i = ((B (i 0) (i 1) : ℝ) : EReal)) :
    matmul DNT none lhs rhs (constant S512x2048 .f32 0x00000000#32) = mat (fun p j => ∑ d, A p d * B j d) := by
  funext j
  refine (Ideal.matmul_constant_zero_apply DNT none lhs rhs j).trans ?_
  rw [← Equiv.sum_comp (contrEquiv1 DNT 64 rfl rfl).symm]
  have e : ∀ k : Fin 64, lhs (DNT.lhsIdx j ((contrEquiv1 DNT 64 rfl rfl).symm k)) * rhs (DNT.rhsIdx j ((contrEquiv1 DNT 64 rfl rfl).symm k))
      = ((A (j 0) k * B (j 1) k : ℝ) : EReal) := by
    intro k
    have hk := contrEquiv1_symm_val DNT 64 rfl rfl k
    have el : DNT.lhsIdx j ((contrEquiv1 DNT 64 rfl rfl).symm k) = ix2 (j 0) k := funext fun a => Fin.ext (by
      match a with
      | ⟨0, _⟩ => exact lhsNT_0 _ _
      | ⟨1, _⟩ => exact (lhsNT_1 _ _).trans hk)
    have er : DNT.rhsIdx j ((contrEquiv1 DNT 64 rfl rfl).symm k) = ix2 (j 1) k := funext fun a => Fin.ext (by
      match a with
      | ⟨0, _⟩ => exact rhsNT_0 _ _
      | ⟨1, _⟩ => exact (rhsNT_1 _ _).trans hk)
    rw [el, er]
    exact (congrArg₂ (· * ·) (hl _) (hr _)).trans (EReal.coe_mul _ _).symm
  rw [Finset.sum_congr rfl (fun k _ => e k)]
  exact sum_coe Finset.univ _

/-- The plain product of real matrices into zeros: entry (p, d) is the inner product of row p with column d. -/
theorem matmulNN_mat (A : Fin 512 → Fin 2048 → ℝ) (B : Fin 2048 → Fin 64 → ℝ) {φ₁ φ₂ : FTy}
    (lhs : FVec Ideal S512x2048 φ₁) (rhs : FVec Ideal S2048x64 φ₂)
    (hl : ∀ i, lhs i = ((A (i 0) (i 1) : ℝ) : EReal)) (hr : ∀ i, rhs i = ((B (i 0) (i 1) : ℝ) : EReal)) :
    matmul DNN none lhs rhs (constant S512x64 .f32 0x00000000#32) = mat (fun p d => ∑ k, A p k * B k d) := by
  funext j
  refine (Ideal.matmul_constant_zero_apply DNN none lhs rhs j).trans ?_
  rw [← Equiv.sum_comp (contrEquiv1 DNN 2048 rfl rfl).symm]
  have e : ∀ k : Fin 2048, lhs (DNN.lhsIdx j ((contrEquiv1 DNN 2048 rfl rfl).symm k)) * rhs (DNN.rhsIdx j ((contrEquiv1 DNN 2048 rfl rfl).symm k))
      = ((A (j 0) k * B k (j 1) : ℝ) : EReal) := by
    intro k
    have hk := contrEquiv1_symm_val DNN 2048 rfl rfl k
    have el : DNN.lhsIdx j ((contrEquiv1 DNN 2048 rfl rfl).symm k) = ix2 (j 0) k := funext fun a => Fin.ext (by
      match a with
      | ⟨0, _⟩ => exact lhsNN_0 _ _
      | ⟨1, _⟩ => exact (lhsNN_1 _ _).trans hk)
    have er : DNN.rhsIdx j ((contrEquiv1 DNN 2048 rfl rfl).symm k) = ix2 k (j 1) := funext fun a => Fin.ext (by
      match a with
      | ⟨0, _⟩ => exact (rhsNN_0 _ _).trans hk
      | ⟨1, _⟩ => exact rhsNN_1 _ _)
    rw [el, er]
    exact (congrArg₂ (· * ·) (hl _) (hr _)).trans (EReal.coe_mul _ _).symm
  rw [Finset.sum_congr rfl (fun k _ => e k)]
  exact sum_coe Finset.univ _

/-! ## The logits -/

/-- The body up to the logits: the three products of the split operands, summed and scaled by 0.125. -/
def logitsOf (v1 : FVec Ideal S512x64 .f32) (v3 : FVec Ideal S2048x64 .f32) : FVec Ideal S512x2048 .f32 :=
  mulf
    (addf
      (addf
        (matmul DNT none (truncf .bf16 v1 Facts₀.bitsLt_bf16_f32) (truncf .bf16 v3 Facts₀.bitsLt_bf16_f32) (constant S512x2048 .f32 0x00000000#32))
        (matmul DNT none (truncf .bf16 v1 Facts₀.bitsLt_bf16_f32) (truncf .bf16 (subf v3 v3) Facts₀.bitsLt_bf16_f32) (constant S512x2048 .f32 0x00000000#32)))
      (matmul DNT none (truncf .bf16 (subf v1 v1) Facts₀.bitsLt_bf16_f32) (truncf .bf16 v3 Facts₀.bitsLt_bf16_f32) (constant S512x2048 .f32 0x00000000#32)))
    (broadcast S512x2048 (Scalar.ofBits .f32 0x3E000000#32))

/-- On real blocks the remainders of the split are zero, so the logits are the one product scaled by 1/8. -/
theorem logitsOf_mat (Q : Fin 512 → Fin 64 → ℝ) (K : Fin 2048 → Fin 64 → ℝ) :
    logitsOf (mat Q) (mat K) = mat (fun p j => (∑ d, Q p d * K j d) / 8) := by
  unfold logitsOf
  rw [sub_mat, sub_mat,
    matmulNT_mat Q K (truncf .bf16 (mat Q) Facts₀.bitsLt_bf16_f32) (truncf .bf16 (mat K) Facts₀.bitsLt_bf16_f32) (fun _ => rfl) (fun _ => rfl),
    matmulNT_mat Q (fun j d => K j d - K j d) (truncf .bf16 (mat Q) Facts₀.bitsLt_bf16_f32)
      (truncf .bf16 (mat (fun j d => K j d - K j d)) Facts₀.bitsLt_bf16_f32) (fun _ => rfl) (fun _ => rfl),
    matmulNT_mat (fun p d => Q p d - Q p d) K (truncf .bf16 (mat (fun p d => Q p d - Q p d)) Facts₀.bitsLt_bf16_f32)
      (truncf .bf16 (mat K) Facts₀.bitsLt_bf16_f32) (fun _ => rfl) (fun _ => rfl),
    add_mat, add_mat, eighth_mat, mul_mat]
  refine congrArg mat (funext fun p => funext fun j => ?_)
  simp only [sub_self, mul_zero, zero_mul, Finset.sum_const_zero, add_zero]
  ring

/-! ## The two results -/

/-- The attention block is the gated softmax of the logits. -/
theorem pay4_split (x0 : Vec Ideal S1x512x64 .f32) (x1 : Vec Ideal S1x2048x64 .f32) :
    k0_pay4 (F := Ideal) x0 x1
      = attnOf (logitsOf (shapeCast S512x64 x0 Facts₀.shapeCasts_S1x512x64_S512x64) (shapeCast S2048x64 x1 Facts₀.shapeCasts_S1x2048x64_S2048x64)) := rfl

/-- A [1, a, b] block of reals with its unit axis cast away. -/
theorem squeeze_mat {a b : ℕ} (x : (⟨3, ![1, a, b]⟩ : Shape).Idx → EReal) (X : Fin a → Fin b → ℝ)
    (h : (⟨3, ![1, a, b]⟩ : Shape).ShapeCasts ⟨2, ![a, b]⟩)
    (hx : ∀ p d, x (ix3 (0 : Fin 1) p d) = ((X p d : ℝ) : EReal)) :
    shapeCast ⟨2, ![a, b]⟩ x h = mat X := by
  funext j
  obtain ⟨p, d, rfl⟩ : ∃ (p : Fin a) (d : Fin b), j = ix2 p d := ⟨j 0, j 1, eq_ix2 j⟩
  rw [shapeCast_1ab_ab_apply]
  exact hx p d

/-- The attention block of real blocks. -/
theorem pay4_mat (x0 : Vec Ideal S1x512x64 .f32) (x1 : Vec Ideal S1x2048x64 .f32)
    (Q : Fin 512 → Fin 64 → ℝ) (K : Fin 2048 → Fin 64 → ℝ)
    (h0 : ∀ p d, x0 (ix3 (0 : Fin 1) p d) = ((Q p d : ℝ) : EReal))
    (h1 : ∀ j d, x1 (ix3 (0 : Fin 1) j d) = ((K j d : ℝ) : EReal)) :
    k0_pay4 (F := Ideal) x0 x1 = mat (fun p => gate (fun j => (∑ d, Q p d * K j d) / 8)) := by
  rw [pay4_split, squeeze_mat x0 Q _ h0, squeeze_mat x1 K _ h1, logitsOf_mat, attnOf_mat]

/-- The output block of real blocks: the gated attention times the values, with the unit axis put back. -/
theorem pay2_mat (x2 : Vec Ideal S1x2048x64 .f32) (W : Fin 2048 → Fin 64 → ℝ) (A : Fin 512 → Fin 2048 → ℝ)
    (h2 : ∀ j d, x2 (ix3 (0 : Fin 1) j d) = ((W j d : ℝ) : EReal))
    (u : Fin 1) (p : Fin 512) (d : Fin 64) :
    k0_pay2 (F := Ideal) (k0_pay3 x2) (mat A) (ix3 u p d) = ((∑ j, A p j * W j d : ℝ) : EReal) := by
  show shapeCast S1x512x64 (matmul DNN none (truncf .bf16 (mat A) Facts₀.bitsLt_bf16_f32)
      (truncf .bf16 (shapeCast S2048x64 x2 Facts₀.shapeCasts_S1x2048x64_S2048x64) Facts₀.bitsLt_bf16_f32)
      (constant S512x64 .f32 0x00000000#32)) Facts₀.shapeCasts_S512x64_S1x512x64 (ix3 u p d) = _
  rw [shapeCast_ab_1ab_apply, squeeze_mat x2 W _ h2, matmulNN_mat A W (truncf .bf16 (mat A) Facts₀.bitsLt_bf16_f32) (truncf .bf16 (mat W) Facts₀.bitsLt_bf16_f32) (fun _ => rfl) (fun _ => rfl)]
  rfl

end Cert.KernelIdeal.Body

end
-- ==== Proof.Spec.lean ====
/-
  The specification: what both programs compute, as functions of real argument arrays.

  For queries Q, keys K and values W of shape [16, 2048, 64], batch element b and query row r, the row's logits are
  score b r j = (Σ_d Q[b, r, d] · K[b, j, d]) / 8. The attention array is the gated softmax of each row of logits,

      attention[b, r, j] = gate (score b r) j,

  and the output is its product with the values, output[b, r, d] = Σ_j attention[b, r, j] · W[b, j, d].
-/
import proofs.«133774_j50534585205285_2_alg».proof.Proof.LibSoftmaxRow
import Idealize.ShloMosaic.Lib.ValueIdx

noncomputable section

namespace Cert.Attn

open Idealize.ShloMosaic Idealize.ShloMosaic.ValueIdx

/-- A real array of the arguments' shape. -/
abbrev Arr : Type := (⟨3, ![16, 2048, 64]⟩ : Shape).Idx → ℝ

/-- The logits of query row (b, r). -/
def score (Q K : Arr) (b : Fin 16) (r : Fin 2048) (j : Fin 2048) : ℝ :=
  (∑ d : Fin 64, Q (ix3 b r d) * K (ix3 b j d)) / 8

/-- The attention array: each row of logits through the gated softmax. -/
def attnSpec (Q K : Arr) : (⟨3, ![16, 2048, 2048]⟩ : Shape).Idx → EReal :=
  fun i => ((gate (score Q K (i 0) (i 1)) (i 2) : ℝ) : EReal)

/-- The output array: the attention times the values. -/
def outSpec (Q K W : Arr) : (⟨3, ![16, 2048, 64]⟩ : Shape).Idx → EReal :=
  fun i => ((∑ j : Fin 2048, gate (score Q K (i 0) (i 1)) j * W (ix3 (i 0) j (i 2)) : ℝ) : EReal)

end Cert.Attn

end
-- ==== Proof.KernelValue.lean ====
/-
  From the kernel's blocks to its two result arrays.

  Grid point t = (b, qi) stages query rows qi·512 … qi·512 + 511 of batch element b, and all keys and values of b;
  it writes back rows qi·512 … of batch element b of both results. What it writes is the body's result on the staged
  blocks; on real arrays that is the specification restricted to the block, because a block's entry (u, p, j) is the
  array's entry (b, qi·512 + p, j) and the row's logits only involve batch element b. The 16 × 4 blocks tile both
  result arrays, so after the run each array is the specification everywhere.
-/
import proofs.«133774_j50534585205285_2_alg».proof.Proof.Gen.KernelIdeal.Value
import proofs.«133774_j50534585205285_2_alg».proof.Proof.KernelBody
import proofs.«133774_j50534585205285_2_alg».proof.Proof.Spec

noncomputable section

namespace Cert.KernelIdeal.AttnValue

open Cert.KernelIdeal Cert.KernelIdeal.Gen Cert.KernelIdeal.Body Idealize.ShloMosaic Idealize.ShloMosaic.TcCoe Idealize.SL.Sem
open Idealize.ShloMosaic.ValueIdx Cert.Attn
open Idealize.ShloMosaic.Pipeline (Dat)

theorem hz3 : (![0, 0, 0] : Fin 3 → Nat) = fun _ => 0 := funext fun a => by fin_cases a <;> rfl

/-! ## The index maps, decided over the 64 grid points -/

/-- Every input window and the first result window move with the second result window: same batch element, the
    query windows the same row block, the key and value windows always the whole of the batch element. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (2 : Fin 3) = 0 ∧ win0_4.index t (0 : Fin 3) ≤ 15 ∧ win0_4.index t (1 : Fin 3) ≤ 3 :=
  (by decide +kernel : ∀ t : Fin grid0.N, _)

/-- Every (batch element, row block) is some grid point's. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-- The batch element of grid point t. -/
def bOf (t : Fin cfg0.N) : Fin 16 :=
  ⟨win0_4.index t (0 : Fin 3), by obtain ⟨-, -, -, -, -, -, -, -, -, -, -, -, -, h, -⟩ := idx_facts t; omega⟩

/-- The array row of row p of grid point t's block. -/
def rOf (t : Fin cfg0.N) (p : Fin 512) : Fin 2048 :=
  ⟨win0_4.index t (1 : Fin 3) * 512 + p.val, by
    obtain ⟨-, -, -, -, -, -, -, -, -, -, -, -, -, -, h⟩ := idx_facts t; have := p.isLt; omega⟩

/-! ## What the body leaves in the two result buffers, on real blocks -/

/-- The attention buffer after the body. -/
theorem out4_at (x0 : Vec Ideal S1x512x64 .f32) (x1 : Vec Ideal S1x2048x64 .f32) (x2 : Vec Ideal S1x2048x64 .f32)
    (Qb : Fin 512 → Fin 64 → ℝ) (Kb : Fin 2048 → Fin 64 → ℝ)
    (h0 : ∀ p d, x0 (ix3 (0 : Fin 1) p d) = ((Qb p d : ℝ) : EReal))
    (h1 : ∀ j d, x1 (ix3 (0 : Fin 1) j d) = ((Kb j d : ℝ) : EReal))
    (y : S1x512x2048.Idx) :
    out0_4 x0 x1 x2 y = ((gate (fun j' => (∑ d, Qb (y 1) d * Kb j' d) / 8) (y 2) : ℝ) : EReal) := by
  obtain ⟨u, p, j, rfl⟩ : ∃ (u : Fin 1) (p : Fin 512) (j : Fin 2048), y = ix3 u p j := ⟨y 0, y 1, y 2, eq_ix3 y⟩
  unfold out0_4
  rw [View.canon_unit_zero hz3]
  simp only [View.ld_unit_zero (S := S1x512x64) hz3, View.ld_unit_zero (S := S1x2048x64) hz3]
  show shapeCast S1x512x2048 (k0_pay4 x0 x1) Facts₀.shapeCasts_S512x2048_S1x512x2048 (ix3 u p j) = _
  rw [shapeCast_ab_1ab_apply, pay4_mat x0 x1 Qb Kb h0 h1]
  rfl

/-- The output buffer after the body. -/
theorem out3_at (x0 : Vec Ideal S1x512x64 .f32) (x1 : Vec Ideal S1x2048x64 .f32) (x2 : Vec Ideal S1x2048x64 .f32)
    (Qb : Fin 512 → Fin 64 → ℝ) (Kb : Fin 2048 → Fin 64 → ℝ) (Wb : Fin 2048 → Fin 64 → ℝ)
    (h0 : ∀ p d, x0 (ix3 (0 : Fin 1) p d) = ((Qb p d : ℝ) : EReal))
    (h1 : ∀ j d, x1 (ix3 (0 : Fin 1) j d) = ((Kb j d : ℝ) : EReal))
    (h2 : ∀ j d, x2 (ix3 (0 : Fin 1) j d) = ((Wb j d : ℝ) : EReal))
    (y : S1x512x64.Idx) :
    out0_3 x0 x1 x2 y = ((∑ j, gate (fun j' => (∑ d, Qb (y 1) d * Kb j' d) / 8) j * Wb j (y 2) : ℝ) : EReal) := by
  obtain ⟨u, p, d, rfl⟩ : ∃ (u : Fin 1) (p : Fin 512) (d : Fin 64), y = ix3 u p d := ⟨y 0, y 1, y 2, eq_ix3 y⟩
  unfold out0_3
  rw [View.canon_unit_zero hz3]
  simp only [View.ld_unit_zero (S := S1x512x64) hz3, View.ld_unit_zero (S := S1x2048x64) hz3]
  rw [pay4_mat x0 x1 Qb Kb h0 h1]
  exact pay2_mat x2 Wb _ h2 u p d

/-! ## The blocks at a grid point are the arrays' -/

section
variable (m : (ℓ : Loc nD τ sig) → Buf (Elt Ideal) ℓ) (ρ : Dev nD → PrngReg)
variable (c : Dev nD) (Q K W : Arr)
variable (hQ : ∀ i : S16x2048x64.Idx, V m c main_arg0 i = ((Q i : ℝ) : EReal))
variable (hK : ∀ i : S16x2048x64.Idx, V m c main_arg1 i = ((K i : ℝ) : EReal))
variable (hW : ∀ i : S16x2048x64.Idx, V m c main_arg2 i = ((W i : ℝ) : EReal))

include hQ in
theorem blk0_at (t : Fin cfg0.N) (p : Fin 512) (d : Fin 64) :
    iblk m c 0 t (ix3 (0 : Fin 1) p d) = ((Q (ix3 (bOf t) (rOf t p) d) : ℝ) : EReal) := by
  show V m c main_arg0 (((cfg0.win 0).blk t).view.emb (ix3 (0 : Fin 1) p d)) = _
  have e : ((cfg0.win 0).blk t).view.emb (ix3 (0 : Fin 1) p d) = ix3 (bOf t) (rOf t p) d := by
    obtain ⟨f0, f1, f2, -⟩ := idx_facts t
    funext a; apply Fin.ext
    match a with
    | ⟨0, _⟩ => show win0_0.index t (0 : Fin 3) * 1 + 1 * 0 = win0_4.index t (0 : Fin 3); omega
    | ⟨1, _⟩ => show win0_0.index t (1 : Fin 3) * 512 + 1 * p.val = win0_4.index t (1 : Fin 3) * 512 + p.val; omega
    | ⟨2, _⟩ => show win0_0.index t (2 : Fin 3) * 64 + 1 * d.val = d.val; omega
  rw [e]; exact hQ _

include hK in
theorem blk1_at (t : Fin cfg0.N) (j : Fin 2048) (d : Fin 64) :
    iblk m c 1 t (ix3 (0 : Fin 1) j d) = ((K (ix3 (bOf t) j d) : ℝ) : EReal) := by
  show V m c main_arg1 (((cfg0.win 1).blk t).view.emb (ix3 (0 : Fin 1) j d)) = _
  have e : ((cfg0.win 1).blk t).view.emb (ix3 (0 : Fin 1) j d) = ix3 (bOf t) j d := by
    obtain ⟨-, -, -, f0, f1, f2, -⟩ := idx_facts t
    funext a; apply Fin.ext
    match a with
    | ⟨0, _⟩ => show win0_1.index t (0 : Fin 3) * 1 + 1 * 0 = win0_4.index t (0 : Fin 3); omega
    | ⟨1, _⟩ => show win0_1.index t (1 : Fin 3) * 2048 + 1 * j.val = j.val; omega
    | ⟨2, _⟩ => show win0_1.index t (2 : Fin 3) * 64 + 1 * d.val = d.val; omega
  rw [e]; exact hK _

include hW in
theorem blk2_at (t : Fin cfg0.N) (j : Fin 2048) (d : Fin 64) :
    iblk m c 2 t (ix3 (0 : Fin 1) j d) = ((W (ix3 (bOf t) j d) : ℝ) : EReal) := by
  show V m c main_arg2 (((cfg0.win 2).blk t).view.emb (ix3 (0 : Fin 1) j d)) = _
  have e : ((cfg0.win 2).blk t).view.emb (ix3 (0 : Fin 1) j d) = ix3 (bOf t) j d := by
    obtain ⟨-, -, -, -, -, -, f0, f1, f2, -⟩ := idx_facts t
    funext a; apply Fin.ext
    match a with
    | ⟨0, _⟩ => show win0_2.index t (0 : Fin 3) * 1 + 1 * 0 = win0_4.index t (0 : Fin 3); omega
    | ⟨1, _⟩ => show win0_2.index t (1 : Fin 3) * 2048 + 1 * j.val = j.val; omega
    | ⟨2, _⟩ => show win0_2.index t (2 : Fin 3) * 64 + 1 * d.val = d.val; omega
  rw [e]; exact hW _

/-! ## What a grid point writes back is its block of the specification -/

include hQ hK in
theorem flushed4_eq (t : Fin cfg0.N) :
    (dats m 0 c).flushed 4 t = ((cfg0.win 4).blk t).view.read (Elt Ideal) (attnSpec Q K) := by
  rw [Value.flushed4]
  funext y
  show out0_4 (iblk m c 0 t) (iblk m c 1 t) (iblk m c 2 t) y = attnSpec Q K (((cfg0.win 4).blk t).view.emb y)
  refine (out4_at _ _ _ (fun p d => Q (ix3 (bOf t) (rOf t p) d)) (fun j d => K (ix3 (bOf t) j d))
    (blk0_at m c Q hQ t) (blk1_at m c K hK t) y).trans ?_
  have e : ((cfg0.win 4).blk t).view.emb y = ix3 (bOf t) (rOf t (y 1)) (y 2) := by
    obtain ⟨-, -, -, -, -, -, -, -, -, -, -, -, f2, -⟩ := idx_facts t
    have hy0 : (y 0).val < 1 := (y 0).isLt
    funext a; apply Fin.ext
    match a with
    | ⟨0, _⟩ => show win0_4.index t (0 : Fin 3) * 1 + 1 * (y 0).val = win0_4.index t (0 : Fin 3); omega
    | ⟨1, _⟩ => show win0_4.index t (1 : Fin 3) * 512 + 1 * (y 1).val = win0_4.index t (1 : Fin 3) * 512 + (y 1).val; omega
    | ⟨2, _⟩ => show win0_4.index t (2 : Fin 3) * 2048 + 1 * (y 2).val = (y 2).val; omega
  rw [e]
  rfl

include hQ hK hW in
theorem flushed3_eq (t : Fin cfg0.N) :
    (dats m 0 c).flushed 3 t = ((cfg0.win 3).blk t).view.read (Elt Ideal) (outSpec Q K W) := by
  rw [Value.flushed3]
  funext y
  show out0_3 (iblk m c 0 t) (iblk m c 1 t) (iblk m c 2 t) y = outSpec Q K W (((cfg0.win 3).blk t).view.emb y)
  refine (out3_at _ _ _ (fun p d => Q (ix3 (bOf t) (rOf t p) d)) (fun j d => K (ix3 (bOf t) j d)) (fun j d => W (ix3 (bOf t) j d))
    (blk0_at m c Q hQ t) (blk1_at m c K hK t) (blk2_at m c W hW t) y).trans ?_
  have e : ((cfg0.win 3).blk t).view.emb y = ix3 (bOf t) (rOf t (y 1)) (y 2) := by
    obtain ⟨-, -, -, -, -, -, -, -, -, f0, f1, f2, -⟩ := idx_facts t
    have hy0 : (y 0).val < 1 := (y 0).isLt
    funext a; apply Fin.ext
    match a with
    | ⟨0, _⟩ => show win0_3.index t (0 : Fin 3) * 1 + 1 * (y 0).val = win0_4.index t (0 : Fin 3); omega
    | ⟨1, _⟩ => show win0_3.index t (1 : Fin 3) * 512 + 1 * (y 1).val = win0_4.index t (1 : Fin 3) * 512 + (y 1).val; omega
    | ⟨2, _⟩ => show win0_3.index t (2 : Fin 3) * 64 + 1 * (y 2).val = (y 2).val; omega
  rw [e]
  rfl

/-! ## The blocks tile the result arrays -/

theorem mem_blk4 (t : Fin cfg0.N) (i : S16x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v0_1).slice (win0_4.rect t)).set ↔ _
  rw [View.set_slice_whole, Rect.mem_set_unit]
  exact Iff.rfl

theorem mem_blk3 (t : Fin cfg0.N) (i : S16x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v0_0).slice (win0_3.rect t)).set ↔ _
  rw [View.set_slice_whole, Rect.mem_set_unit]
  exact Iff.rfl

/-- Every entry of the attention array is in the block of the point (its batch element, its row's block). -/
theorem cover4 (i : S16x2048x2048.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- Likewise every entry of the output array. -/
theorem cover3 (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  obtain ⟨-, -, -, -, -, -, -, -, -, f0, f1, f2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-! ## The arrays after the run -/

include hQ hK in
theorem final4 : (dats m 0 c).arrAt 4 cfg0.N = attnSpec Q K :=
  (dats m 0 c).arrAt_eq_of_cover 4 (attnSpec Q K) (fun t _ => flushed4_eq m c Q K hQ hK t) cover4

include hQ hK hW in
theorem final3 : (dats m 0 c).arrAt 3 cfg0.N = outSpec Q K W :=
  (dats m 0 c).arrAt_eq_of_cover 3 (outSpec Q K W) (fun t _ => flushed3_eq m c Q K W hQ hK hW t) cover3

end

end Cert.KernelIdeal.AttnValue

end
-- ==== Proof.RefValue.lean ====
/-
  The reference program computes the specification.

  Read one operation at a time on real argument arrays: the batched product of queries and keys divided by 8 is the
  logits `score`; the row maximum (a fold of max from -∞, then a maximum with -∞ that changes nothing) and the row
  sum (from 0) are those of real rows; the quotient by the positive row sum is the softmax; its comparison with its own
  row maximum is the gate, which by the row law is the gate on the exponentials; the last batched product with the
  values is the output.
-/
import proofs.«133774_j50534585205285_2_alg».proof.Proof.Gen.ReferenceIdeal.Read
import proofs.«133774_j50534585205285_2_alg».proof.Proof.Spec
import proofs.«133774_j50534585205285_2_alg».proof.Proof.Consts

noncomputable section

namespace Cert.ReferenceIdeal.RefValue

open Cert.ReferenceIdeal Cert.ReferenceIdeal.Read Idealize.ShloMosaic Idealize.ShloMosaic.ValueIdx Cert.Attn

/-- A real array as an argument array of extended reals. -/
def cast (Q : Arr) : (⟨S16x2048x64, .f32⟩ : BufTy).Contents (Elt Ideal) := fun i => ((Q i : ℝ) : EReal)

variable (Q K W : Arr)

/-- The batched product of queries and keys at (b, r, j). -/
theorem v0_at (b : Fin 16) (r j : Fin 2048) :
    val_main_v0 (F := Ideal) (cast Q) (cast K) (ix3 b r j) = ((∑ d : Fin 64, Q (ix3 b r d) * K (ix3 b j d) : ℝ) : EReal) := by
  refine (val_main_v0_apply (cast Q) (cast K) (ix3 b r j)).trans ?_
  have e : ∀ k : Fin 64, cast Q (lidx_main_v0 (ix3 b r j) k) * cast K (ridx_main_v0 (ix3 b r j) k)
      = ((Q (ix3 b r k) * K (ix3 b j k) : ℝ) : EReal) := by
    intro k
    have el : lidx_main_v0 (ix3 b r j) k = ix3 b r k :=
      funext fun a => Fin.ext (by match a with | ⟨0, _⟩ => rfl | ⟨1, _⟩ => rfl | ⟨2, _⟩ => rfl)
    have er : ridx_main_v0 (ix3 b r j) k = ix3 b j k :=
      funext fun a => Fin.ext (by match a with | ⟨0, _⟩ => rfl | ⟨1, _⟩ => rfl | ⟨2, _⟩ => rfl)
    rw [el, er]
    exact (EReal.coe_mul _ _).symm
  rw [Finset.sum_congr rfl (fun k _ => e k)]
  exact sum_coe Finset.univ _

/-- Divided by 8: the logits. -/
theorem v2_at (b : Fin 16) (r j : Fin 2048) :
    val_main_v2 (F := Ideal) (cast Q) (cast K) (ix3 b r j) = ((score Q K b r j : ℝ) : EReal) := by
  refine (val_main_v2_apply (cast Q) (cast K) (ix3 b r j)).trans ?_
  rw [v0_at, val_main_v1_apply, val_main_cst_apply]
  show Ideal.div _ (Ideal.ofBits .f32 0x41000000#32) = _
  rw [Consts.ofBits_eight, div_coe_coe _ _ (by norm_num)]
  rfl

/-- The reduced index (b, r) with the key coordinate put back. -/
theorem lift_at (hR : S16x2048x2048.Reduces [2] S16x2048) (b : Fin 16) (r : Fin 2048) (k : Fin 2048) :
    hR.lift (ix2 b r) k = ix3 b r k :=
  funext fun a => Fin.ext (by match a with | ⟨0, _⟩ => rfl | ⟨1, _⟩ => rfl | ⟨2, _⟩ => rfl)

/-- The row maximum of the logits. -/
theorem v3_at (b : Fin 16) (r : Fin 2048) :
    val_main_v3 (F := Ideal) (cast Q) (cast K) (ix2 b r) = ((rmax (score Q K b r) : ℝ) : EReal) := by
  unfold val_main_v3
  have hR : S16x2048x2048.Reduces [2] S16x2048 := by decide
  refine (Host.reduce_eq_fold_single FloatOps.maximumf _ _ Facts₀.reducesTo_S16x2048x2048_S16x2048_d2 hR Facts₀.h_S_ (ix2 b r)).trans ?_
  have hf : (val_main_v2 (F := Ideal) (cast Q) (cast K) ∘ hR.lift (ix2 b r)) = fun k : Fin 2048 => ((score Q K b r k : ℝ) : EReal) := by
    funext k
    show val_main_v2 (F := Ideal) (cast Q) (cast K) (hR.lift (ix2 b r) k) = _
    rw [lift_at hR b r k]
    exact v2_at Q K b r k
  rw [hf]
  have hb : (val_main_cst_0 (F := Ideal)) (Shape.Idx.first Facts₀.h_S_) = (⊥ : EReal) := Consts.ofBits_neg_inf
  rw [hb]
  exact fold_max_coe (score Q K b r)

/-- Laid back along the keys. -/
theorem v7_at (b : Fin 16) (r j : Fin 2048) :
    val_main_v7 (F := Ideal) (cast Q) (cast K) (ix3 b r j) = ((rmax (score Q K b r) : ℝ) : EReal) := by
  refine (val_main_v7_apply (cast Q) (cast K) (ix3 b r j)).trans ?_
  refine (val_main_v6_apply (cast Q) (cast K) _).trans ?_
  have ei : idx_main_v6 (idx_main_v7 (ix3 b r j)) = ix2 b r :=
    funext fun a => Fin.ext (by match a with | ⟨0, _⟩ => rfl | ⟨1, _⟩ => rfl)
  rw [ei]
  refine (val_main_v5_apply (cast Q) (cast K) (ix2 b r)).trans ?_
  rw [v3_at, val_main_v4_apply, val_main_cst_1_apply]
  show max (Ideal.ofBits .f32 0xFF800000#32) _ = _
  rw [Consts.ofBits_neg_inf]
  exact max_eq_right bot_le

/-- The exponentials of the shifted logits. -/
theorem v9_at (b : Fin 16) (r j : Fin 2048) :
    val_main_v9 (F := Ideal) (cast Q) (cast K) (ix3 b r j) = ((pexp (score Q K b r) j : ℝ) : EReal) := by
  refine (val_main_v9_apply (cast Q) (cast K) (ix3 b r j)).trans ?_
  rw [val_main_v8_apply, v2_at, v7_at]
  exact exp_sub_coe _ _

/-- Their row sum. -/
theorem v10_at (b : Fin 16) (r : Fin 2048) :
    val_main_v10 (F := Ideal) (cast Q) (cast K) (ix2 b r) = ((psum (score Q K b r) : ℝ) : EReal) := by
  refine (val_main_v10_apply (cast Q) (cast K) (ix2 b r)).trans ?_
  have e : ∀ k : Fin 2048, val_main_v9 (F := Ideal) (cast Q) (cast K) (idx_main_v10 (ix2 b r) k) = ((pexp (score Q K b r) k : ℝ) : EReal) := by
    intro k
    have ei : idx_main_v10 (ix2 b r) k = ix3 b r k :=
      funext fun a => Fin.ext (by match a with | ⟨0, _⟩ => rfl | ⟨1, _⟩ => rfl | ⟨2, _⟩ => rfl)
    rw [ei]
    exact v9_at Q K b r k
  rw [Finset.sum_congr rfl (fun k _ => e k), sum_coe, val_main_cst_2_apply]
  show Ideal.ofBits .f32 0x00000000#32 + _ = _
  rw [Consts.ofBits_zero, zero_add]
  rfl

/-- The softmax. -/
theorem v13_at (b : Fin 16) (r j : Fin 2048) :
    val_main_v13 (F := Ideal) (cast Q) (cast K) (ix3 b r j) = ((soft (score Q K b r) j : ℝ) : EReal) := by
  refine (val_main_v13_apply (cast Q) (cast K) (ix3 b r j)).trans ?_
  rw [v9_at]
  have e12 : val_main_v12 (F := Ideal) (cast Q) (cast K) (ix3 b r j) = ((psum (score Q K b r) : ℝ) : EReal) := by
    refine (val_main_v12_apply (cast Q) (cast K) (ix3 b r j)).trans ?_
    refine (val_main_v11_apply (cast Q) (cast K) _).trans ?_
    have ei : idx_main_v11 (idx_main_v12 (ix3 b r j)) = ix2 b r :=
      funext fun a => Fin.ext (by match a with | ⟨0, _⟩ => rfl | ⟨1, _⟩ => rfl)
    rw [ei]
    exact v10_at Q K b r
  rw [e12]
  exact div_coe_coe _ _ (psum_pos _).ne'

/-- The softmax's row maximum, laid back along the keys. -/
theorem v16_at (b : Fin 16) (r j : Fin 2048) :
    val_main_v16 (F := Ideal) (cast Q) (cast K) (ix3 b r j) = ((rmax (soft (score Q K b r)) : ℝ) : EReal) := by
  refine (val_main_v16_apply (cast Q) (cast K) (ix3 b r j)).trans ?_
  refine (val_main_v15_apply (cast Q) (cast K) _).trans ?_
  have ei : idx_main_v15 (idx_main_v16 (ix3 b r j)) = ix2 b r :=
    funext fun a => Fin.ext (by match a with | ⟨0, _⟩ => rfl | ⟨1, _⟩ => rfl)
  rw [ei]
  unfold val_main_v14
  have hR : S16x2048x2048.Reduces [2] S16x2048 := by decide
  refine (Host.reduce_eq_fold_single FloatOps.maximumf _ _ Facts₀.reducesTo_S16x2048x2048_S16x2048_d2 hR Facts₀.h_S_ (ix2 b r)).trans ?_
  have hf : (val_main_v13 (F := Ideal) (cast Q) (cast K) ∘ hR.lift (ix2 b r)) = fun k : Fin 2048 => ((soft (score Q K b r) k : ℝ) : EReal) := by
    funext k
    show val_main_v13 (F := Ideal) (cast Q) (cast K) (hR.lift (ix2 b r) k) = _
    rw [lift_at hR b r k]
    exact v13_at Q K b r k
  rw [hf]
  have hb : (val_main_cst_3 (F := Ideal)) (Shape.Idx.first Facts₀.h_S_) = (⊥ : EReal) := Consts.ofBits_neg_inf
  rw [hb]
  exact fold_max_coe (soft (score Q K b r))

/-- The gated softmax: the reference's attention array is the specification's. -/
theorem v19_at (b : Fin 16) (r j : Fin 2048) :
    val_main_v19 (F := Ideal) (cast Q) (cast K) (ix3 b r j) = ((gate (score Q K b r) j : ℝ) : EReal) := by
  refine (val_main_v19_apply (cast Q) (cast K) (ix3 b r j)).trans ?_
  rw [val_main_v18_apply, val_main_v17_apply, v13_at, v16_at, gate_eq_soft]
  show _ * ((((Ideal.cmp .oeq _ _).toNat : ℝ)) : EReal) = _
  rw [mask_uitofp, ← EReal.coe_mul]

theorem attn_eq : val_main_v19 (F := Ideal) (cast Q) (cast K) = attnSpec Q K := by
  funext i
  obtain ⟨b, r, j, rfl⟩ : ∃ (b : Fin 16) (r j : Fin 2048), i = ix3 b r j := ⟨i 0, i 1, i 2, eq_ix3 i⟩
  exact v19_at Q K b r j

/-- The product with the values: the reference's output array is the specification's. -/
theorem out_eq : val_main_v20 (F := Ideal) (cast Q) (cast K) (cast W) = outSpec Q K W := by
  funext i
  obtain ⟨b, r, d, rfl⟩ : ∃ (b : Fin 16) (r : Fin 2048) (d : Fin 64), i = ix3 b r d := ⟨i 0, i 1, i 2, eq_ix3 i⟩
  refine (val_main_v20_apply (cast Q) (cast K) (cast W) (ix3 b r d)).trans ?_
  have e : ∀ k : Fin 2048, val_main_v19 (F := Ideal) (cast Q) (cast K) (lidx_main_v20 (ix3 b r d) k) * cast W (ridx_main_v20 (ix3 b r d) k)
      = ((gate (score Q K b r) k * W (ix3 b k d) : ℝ) : EReal) := by
    intro k
    have el : lidx_main_v20 (ix3 b r d) k = ix3 b r k :=
      funext fun a => Fin.ext (by match a with | ⟨0, _⟩ => rfl | ⟨1, _⟩ => rfl | ⟨2, _⟩ => rfl)
    have er : ridx_main_v20 (ix3 b r d) k = ix3 b k d :=
      funext fun a => Fin.ext (by match a with | ⟨0, _⟩ => rfl | ⟨1, _⟩ => rfl | ⟨2, _⟩ => rfl)
    rw [el, er, v19_at]
    exact (EReal.coe_mul _ _).symm
  rw [Finset.sum_congr rfl (fun k _ => e k)]
  exact sum_coe Finset.univ _

end Cert.ReferenceIdeal.RefValue

end
-- ==== Proof.Finite.lean ====
/-
  The precondition read back: every entry of the three argument arrays is a real number.

  The precondition is the conjunction, over the three arrays, of "every entry x has |x| < +∞". Over the extended
  reals |x| = max x (-x) is +∞ exactly at the two infinities, so an entry passing the test is the image of a real.
-/
import proofs.«133774_j50534585205285_2_alg».proof.Pre_finite_inputs
import proofs.«133774_j50534585205285_2_alg».proof.Proof.Gen.Pre_finite_inputs
import Idealize.ShloMosaic.Lib.ReduceAll
import Idealize.ShloMosaic.Lib.ValueIdx
import Idealize.ShloMosaic.PureOps.Ideal.Laws

noncomputable section

namespace Cert.Attn.Finite

open Idealize.ShloMosaic Cert.Pre_finite_inputs

instance : Subsingleton S_.Idx := ⟨fun a b => funext fun d => d.elim0⟩

/-- An extended real whose absolute value is below +∞ is real. -/
theorem real_of_bit (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot =>
    exfalso
    have e : Ideal.cmp .olt (max (⊥ : EReal) (-⊥)) ⊤ = 0#1 := by simp [Ideal.cmp]
    rw [e] at h
    exact absurd h (by decide)
  | coe r => exact ⟨r, rfl⟩
  | top =>
    exfalso
    have e : Ideal.cmp .olt (max (⊤ : EReal) (-⊤)) ⊤ = 0#1 := by simp [Ideal.cmp]
    rw [e] at h
    exact absurd h (by decide)

/-- Under the precondition every entry of every argument array is a real number. -/
theorem real_inputs (x0 x1 x2 : FVec Ideal S16x2048x64 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.1 h0
  obtain ⟨h0', h1'⟩ := IntOp.andi_eq_one.1 h01
  refine ⟨fun i => ?_, fun i => ?_, fun i => ?_⟩
  · exact real_of_bit _ (Host.reduce_andi_all _ _ _ _ _ h0' i)
  · exact real_of_bit _ (Host.reduce_andi_all _ _ _ _ _ h1' i)
  · exact real_of_bit _ (Host.reduce_andi_all _ _ _ _ _ h2 i)

end Cert.Attn.Finite

end
-- ==== Proof.lean ====
/-
  Winner-take-all attention: a Pallas kernel against its jnp reference, equal over the extended reals.

  Both programs take queries q, keys k and values v of shape [16, 2048, 64] and return the gated attention array
  [16, 2048, 2048] and the output array [16, 2048, 64]. For batch element b and query row r the logits are
  (Σ_d q[b,r,d] · k[b,j,d]) / 8; the row goes through a softmax (shift by the maximum, exponentiate, divide by the
  sum), every entry that is not the row's largest is set to zero, and the output is the product of that gated row with
  the values.

  The kernel differs from the reference in three ways, none of which changes a value on real inputs:
  • it forms q·kᵀ from a leading part and a remainder of each operand, x = hi + (x - hi); without rounding the
    leading part is x itself, the remainders are x - x = 0, and the correction products vanish;
  • it multiplies by 0.125 where the reference divides by 8.0;
  • it decides the gate on the unnormalised exponentials, the reference on the normalised softmax; dividing a row by
    its positive sum keeps the position of its maxima (`Cert.Attn.soft_eq_rmax_iff`).
  The precondition (every input finite) is what makes x - x = 0 and the row sums positive reals.

  The frames are the generated ones (the reference's is its generated run with the results dropped); the two ledger
  entries say that narrowing to bf16 and widening back is the identity over the extended reals. For the values, the
  kernel's run is read block by block (`Cert.KernelIdeal.AttnValue`) and the reference's operation by operation
  (`Cert.ReferenceIdeal.RefValue`); both are the specification `Cert.Attn.attnSpec` / `Cert.Attn.outSpec` of the real
  arrays the precondition provides (`Cert.Attn.Finite.real_inputs`).
-/
import proofs.«133774_j50534585205285_2_alg».proof.Defs
import proofs.«133774_j50534585205285_2_alg».proof.Proof.Gen.Kernel
import proofs.«133774_j50534585205285_2_alg».proof.Proof.Gen.Kernel.Skeleton
import proofs.«133774_j50534585205285_2_alg».proof.Proof.Gen.Kernel.Launch
import proofs.«133774_j50534585205285_2_alg».proof.Proof.Gen.Kernel.Points
import proofs.«133774_j50534585205285_2_alg».proof.Proof.Gen.Kernel.Frame
import proofs.«133774_j50534585205285_2_alg».proof.Proof.Gen.KernelIdeal
import proofs.«133774_j50534585205285_2_alg».proof.Proof.Gen.KernelIdeal.Skeleton
import proofs.«133774_j50534585205285_2_alg».proof.Proof.Gen.KernelIdeal.Launch
import proofs.«133774_j50534585205285_2_alg».proof.Proof.Gen.KernelIdeal.Points
import proofs.«133774_j50534585205285_2_alg».proof.Proof.Gen.KernelIdeal.Frame
import proofs.«133774_j50534585205285_2_alg».proof.Proof.Gen.ReferenceIdeal
import proofs.«133774_j50534585205285_2_alg».proof.Proof.Gen.Pre_finite_inputs
import proofs.«133774_j50534585205285_2_alg».proof.Proof.Gen.KernelIdeal.Value
import proofs.«133774_j50534585205285_2_alg».proof.Proof.Gen.ReferenceIdeal.Run
import proofs.«133774_j50534585205285_2_alg».proof.Proof.Gen.ReferenceIdeal.Read
import proofs.«133774_j50534585205285_2_alg».proof.Proof.KernelValue
import proofs.«133774_j50534585205285_2_alg».proof.Proof.RefValue
import proofs.«133774_j50534585205285_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The two ledger entries: narrowing a [512, 64] and a [2048, 64] vector to bf16 and widening it back is the identity
    over the extended reals. -/
theorem preserves : Cert.preserves_Kernel_KernelIdeal :=
  ⟨IdealRules.truncf_extf.statement _ .f32 .bf16, IdealRules.truncf_extf.statement _ .f32 .bf16⟩

/-- Both programs end with the specification's arrays of the real inputs. -/
theorem algebraic : Cert.algebraic_KernelIdeal_ReferenceIdeal := by
  intro m ρ m' ρ' hpre hagree
  have hr := fun c => Cert.Attn.Finite.real_inputs _ _ _ (hpre c)
  choose Q hQ using fun c => (hr c).1
  choose K hK using fun c => (hr c).2.1
  choose W hW using fun c => (hr c).2.2
  refine ⟨fun c => Cert.Attn.outSpec (Q c) (K c) (W c), fun c => Cert.Attn.attnSpec (Q c) (K c), ?_, ?_⟩
  · exact (θ_run Cert.KernelIdeal.defs _ _).mono
      (fun r h c => ⟨(h c).1.trans (Cert.KernelIdeal.AttnValue.final3 m c (Q c) (K c) (W c) (hQ c) (hK c) (hW c)),
        (h c).2.1.trans (Cert.KernelIdeal.AttnValue.final4 m c (Q c) (K c) (hQ c) (hK c)),
        (h c).2.2⟩)
      (Cert.KernelIdeal.Value.run_blocks m ρ)
  · refine (θ_run Cert.ReferenceIdeal.defs _ _).mono (fun r h c => ⟨?_, ?_, (h c).2.2⟩)
      (Cert.ReferenceIdeal.Value.run (F := Ideal) m' ρ')
    · refine ((h c).1.trans (Cert.ReferenceIdeal.Read.val_main_v20_eq m' c)).trans ?_
      rw [(hagree c).1, (hagree c).2.1, (hagree c).2.2]
      exact (congrArg₂ (fun a b => Cert.ReferenceIdeal.Read.val_main_v20 (F := Ideal) a b _) (funext (hQ c)) (funext (hK c))).trans
        ((congrArg (Cert.ReferenceIdeal.Read.val_main_v20 (F := Ideal) _ _) (funext (hW c))).trans
          (Cert.ReferenceIdeal.RefValue.out_eq (Q c) (K c) (W c)))
    · refine ((h c).2.1.trans (Cert.ReferenceIdeal.Read.val_main_v19_eq m' c)).trans ?_
      rw [(hagree c).1, (hagree c).2.1]
      exact (congrArg₂ (Cert.ReferenceIdeal.Read.val_main_v19 (F := Ideal)) (funext (hQ c)) (funext (hK c))).trans
        (Cert.ReferenceIdeal.RefValue.attn_eq (Q c) (K c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
